-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S96x64 .f32) (main_arg9 : FVec F S64 .f32) (main_v33 : IVec S_ 1) : IVec S_ 1 :=
  let main_v34 : FVec F S96x64 .f32 := Host.absf main_arg8
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S96 .f32) (main_arg6 : FVec F S96x96 .f32) (main_arg7 : FVec F S96 .f32) (main_arg8 : FVec F S96x64 .f32) (main_arg9 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x96 .f32) (main_arg3 : FVec F S96 .f32) (main_arg4 : FVec F S96x96 .f32) (main_arg5 : FVec F S96 .f32) (main_arg6 : FVec F S96x96 .f32) (main_arg7 : FVec F S96 .f32) (main_arg8 : FVec F S96x64 .f32) (main_arg9 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg2
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S5000x512 : Shape := ⟨2, ![5000, 512]⟩
abbrev S5000x96 : Shape := ⟨2, ![5000, 96]⟩
abbrev S800000x96 : Shape := ⟨2, ![800000, 96]⟩
abbrev S50000x1 : Shape := ⟨2, ![50000, 1]⟩
abbrev S1x96 : Shape := ⟨2, ![1, 96]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 132
  | .vmem => 21
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S50000x96, .f32⟩
  | 45 => ⟨S50000x96, .bf16⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x96, .bf16⟩
  | 55 => ⟨S800000x96, .f32⟩
  | 56 => ⟨S800000x1, .f32⟩
  | 57 => ⟨S800000x96, .f32⟩
  | 58 => ⟨S800000x96, .f32⟩
  | 59 => ⟨S_, .f32⟩
  | 60 => ⟨S50000x96, .f32⟩
  | 61 => ⟨S800000x1, .i32⟩
  | 62 => ⟨S50000x96, .f32⟩
  | 63 => ⟨S50000x1, .f32⟩
  | 64 => ⟨S50000x96, .f32⟩
  | 65 => ⟨S50000x96, .f32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S50000x96, .f32⟩
  | 74 => ⟨S50000x96, .bf16⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x96, .bf16⟩
  | 84 => ⟨S800000x96, .f32⟩
  | 85 => ⟨S800000x1, .f32⟩
  | 86 => ⟨S800000x96, .f32⟩
  | 87 => ⟨S800000x96, .f32⟩
  | 88 => ⟨S_, .f32⟩
  | 89 => ⟨S50000x96, .f32⟩
  | 90 => ⟨S800000x1, .i32⟩
  | 91 => ⟨S50000x96, .f32⟩
  | 92 => ⟨S50000x1, .f32⟩
  | 93 => ⟨S50000x96, .f32⟩
  | 94 => ⟨S50000x96, .f32⟩
  | 95 => ⟨S50000x96, .f32⟩
  | 96 => ⟨S1x96, .f32⟩
  | 97 => ⟨S50000x96, .f32⟩
  | 98 => ⟨S50000x96, .f32⟩
  | 99 => ⟨S_, .f32⟩
  | 100 => ⟨S50000x96, .f32⟩
  | 101 => ⟨S50000x96, .f32⟩
  | 102 => ⟨S50000x96, .f32⟩
  | 103 => ⟨S50000x96, .bf16⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x96, .bf16⟩
  | 113 => ⟨S800000x96, .f32⟩
  | 114 => ⟨S800000x1, .f32⟩
  | 115 => ⟨S800000x96, .f32⟩
  | 116 => ⟨S800000x96, .f32⟩
  | 117 => ⟨S_, .f32⟩
  | 118 => ⟨S50000x96, .f32⟩
  | 119 => ⟨S800000x1, .i32⟩
  | 120 => ⟨S50000x96, .f32⟩
  | 121 => ⟨S50000x1, .f32⟩
  | 122 => ⟨S50000x96, .f32⟩
  | 123 => ⟨S50000x96, .f32⟩
  | 124 => ⟨S50000x96, .f32⟩
  | 125 => ⟨S1x96, .f32⟩
  | 126 => ⟨S50000x96, .f32⟩
  | 127 => ⟨S50000x96, .f32⟩
  | _ => ⟨S50000x512, .f32⟩

abbrev hbmTy0_1 (i : Nat) : BufTy := match i % 128 with
  | 0 => ⟨S_, .f32⟩
  | 1 => ⟨S50000x96, .f32⟩
  | 2 => ⟨S50000x96, .f32⟩
  | 3 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S96x64, .f32⟩
  | .local _ .vmem, ⟨18, _⟩ => ⟨S64, .f32⟩
  | .local _ .vmem, ⟨19, _⟩ => ⟨S5000x64, .f32⟩
  | .local _ .vmem, ⟨20, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call3_cst : Ref sig .tc := ⟨.hbm, 99, rfl⟩
abbrev main_call3_v0 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_11 : Ref sig .tc := ⟨.hbm, 104, rfl⟩
abbrev main_v77 : Ref sig .tc := ⟨.hbm, 105, rfl⟩
abbrev main_v78 : Ref sig .tc := ⟨.hbm, 106, rfl⟩
abbrev main_c_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_13 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_call5_cst : Ref sig .tc := ⟨.hbm, 128, rfl⟩
abbrev main_call5_v0 : Ref sig .tc := ⟨.hbm, 129, rfl⟩
abbrev main_v98 : Ref sig .tc := ⟨.hbm, 130, rfl⟩
abbrev main_v99 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  inb_S96x64_S96x64_0_0 : ∀ a, (![0, 0] : Fin 2 → Nat) a + S96x64.size a ≤ S96x64.size a
  h_S96x64 : 0 < S96x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x512_S512x96_S5000x96_1_0_0_1_n_n_wf : DotDims.WF S5000x512 S512x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x64.size a ≤ S96x64.size a
  hwx3_1 : ∀ i : grid3.Coords, EltTy.bits .f32 = 32 ∨ (Rect.block (s := S96x64) S96x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x512_S512x96_S5000x96_1_0_0_1_n_n : DotDims S5000x512 S512x96 S5000x96 where
  lhsContracting := [1]
  rhsContracting := [0]
  lhsNonContracting := [0]
  rhsNonContracting := [1]
  lhsBatch := []
  rhsBatch := []
  wf := dot_S5000x512_S512x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v98) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S96x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x64 : Shape := ⟨2, ![50000, 64]⟩
abbrev S1x64 : Shape := ⟨2, ![1, 64]⟩

abbrev nBuf : Space → Nat
  | .hbm => 189
  | .vmem => 0
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000x96, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x96, .f32⟩
  | 53 => ⟨S800000x1, .f32⟩
  | 54 => ⟨S800000x96, .f32⟩
  | 55 => ⟨S800000x96, .f32⟩
  | 56 => ⟨S_, .f32⟩
  | 57 => ⟨S50000x96, .f32⟩
  | 58 => ⟨S800000x1, .i32⟩
  | 59 => ⟨S50000x96, .f32⟩
  | 60 => ⟨S50000, .f32⟩
  | 61 => ⟨S50000x1, .f32⟩
  | 62 => ⟨S50000x96, .f32⟩
  | 63 => ⟨S50000x96, .f32⟩
  | 64 => ⟨S50000x96, .f32⟩
  | 65 => ⟨S1x96, .f32⟩
  | 66 => ⟨S50000x96, .f32⟩
  | 67 => ⟨S50000x96, .f32⟩
  | 68 => ⟨S_, .f32⟩
  | 69 => ⟨S50000x96, .f32⟩
  | 70 => ⟨S50000x96, .f32⟩
  | 71 => ⟨S50000x96, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x96, .f32⟩
  | 110 => ⟨S800000x1, .f32⟩
  | 111 => ⟨S800000x96, .f32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000, .f32⟩
  | 118 => ⟨S50000x1, .f32⟩
  | 119 => ⟨S50000x96, .f32⟩
  | 120 => ⟨S50000x96, .f32⟩
  | 121 => ⟨S50000x96, .f32⟩
  | 122 => ⟨S1x96, .f32⟩
  | 123 => ⟨S50000x96, .f32⟩
  | 124 => ⟨S50000x96, .f32⟩
  | 125 => ⟨S_, .f32⟩
  | 126 => ⟨S50000x96, .f32⟩
  | 127 => ⟨S50000x96, .f32⟩
  | _ => ⟨S50000x512, .f32⟩

abbrev hbmTy0_1 (i : Nat) : BufTy := match i % 128 with
  | 0 => ⟨S50000x96, .f32⟩
  | 1 => ⟨S_, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S50000, .f32⟩
  | 9 => ⟨S50000, .f32⟩
  | 10 => ⟨S50000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x96, .f32⟩
  | 39 => ⟨S800000x1, .f32⟩
  | 40 => ⟨S800000x96, .f32⟩
  | 41 => ⟨S800000x96, .f32⟩
  | 42 => ⟨S_, .f32⟩
  | 43 => ⟨S50000x96, .f32⟩
  | 44 => ⟨S800000x1, .i32⟩
  | 45 => ⟨S50000x96, .f32⟩
  | 46 => ⟨S50000, .f32⟩
  | 47 => ⟨S50000x1, .f32⟩
  | 48 => ⟨S50000x96, .f32⟩
  | 49 => ⟨S50000x96, .f32⟩
  | 50 => ⟨S50000x96, .f32⟩
  | 51 => ⟨S1x96, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S50000x64, .f32⟩
  | 58 => ⟨S1x64, .f32⟩
  | 59 => ⟨S50000x64, .f32⟩
  | 60 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_21 : Ref sig .tc := ⟨.hbm, 139, rfl⟩
abbrev main_v102 : Ref sig .tc := ⟨.hbm, 140, rfl⟩
abbrev main_v103 : Ref sig .tc := ⟨.hbm, 141, rfl⟩
abbrev main_c_22 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_c_24 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_25 : Ref sig .tc := ⟨.hbm, 158, rfl⟩
abbrev main_v117 : Ref sig .tc := ⟨.hbm, 159, rfl⟩
abbrev main_v118 : Ref sig .tc := ⟨.hbm, 160, rfl⟩
abbrev main_c_26 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_27 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call2_cst : Ref sig .tc := ⟨.hbm, 182, rfl⟩
abbrev main_call2_v0 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x96_S50000x96_1_0_0_1_n_n_wf : DotDims.WF S50000x512 S512x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []

variable [Facts₀]

def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.KernelRun.lean ====
/-
  The kernel program's run with its RESULT named.

  @main is eleven segments: a stretch of host operations, a blocked matrix product, two stretches, a product, two
  stretches, a product, two stretches, and the last product with its bias.  Running them in order from the launch
  memory, every buffer that outlives a segment holds, at each boundary, the contents the fold `W0 … W11` names: a
  stretch applies its operations, a product region replaces its output array by what its ten write-backs leave and
  keeps every other buffer.  So every weakly fair execution terminates, nothing faults, the result buffer ends at
  `W11`'s contents of it, and the ten argument arrays end as launched.  The statement holds for any float values.
-/
import proofs.«132753_j15307263443205_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends holding the last
    boundary's contents of it, and every argument array what it held at launch. -/
theorem run : θ_run defs (onTc (τ := τ) (main (F := F))) ⟨m, fun _ => 0, ρ⟩ (fun r => ∀ c : Dev nD,
      r.2.mem ((c.tc : Thread nD τ).loc main_v99) = W11 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v99 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.Layer.lean ====
/-
  One graph-convolution layer as host operations on whole arrays.

  The graph has 50000 nodes and 800000 edges; the edge list is a [2, 800000] integer array, row 0 the sources s(e), row 1
  the targets t(e).  With deg(v) = 1 + #{e : t(e) = v} and dinv = deg^(-1/2), a layer sends a [50000, 96] matrix h to

      relu( Σ_{e : t(e) = v} h[s(e), :] · dinv[s(e)] · dinv[t(e)]  +  h[v, :] · dinv[v]²  +  b ),

  spelt as jnp spells it: a row gather at the (wrapped) sources, a product with the edge normaliser laid along the
  rows, a scatter-add at the targets into zeros, the self-loop term, the bias row, and a maximum with zero.  The
  definitions below name those pieces once, so that two programs that run the same operations are compared piece by
  piece and never opened.  `rowsNarrow` is the gather of a program that stages the matrix in a 16-bit format before
  gathering and widens the rows back: on the extended reals a change of format is the identity, so it gathers the
  same rows (`rowsNarrow_eq`).
-/
import proofs.«132753_j15307263443205_2_alg».proof.KernelIdeal
import Idealize.ShloMosaic.PureOps.Ideal

noncomputable section

namespace Cert.KernelIdeal.Layer

open Cert.KernelIdeal Cert.KernelIdeal.Facts₀ Cert.KernelIdeal.Facts Idealize.ShloMosaic

variable {F : FTy → Type} [FloatOps F] [Cert.KernelIdeal.Facts]

/-- The contents of a buffer of shape `S` and element type `e`. -/
abbrev Arr (F : FTy → Type) (S : Shape) (e : EltTy) : Type := (⟨S, e⟩ : BufTy).Contents (Elt F)

/-- Row 0 of the edge list: the sources. -/
def src (ei : Arr F S2x800000 .i32) : Arr F S800000 .i32 :=
  shapeCast S800000 (extractStridedSlice S1x800000 ![0, 0] ei slices_S2x800000_S1x800000_0_0) shapeCasts_S1x800000_S800000

/-- Row 1 of the edge list: the targets. -/
def dst (ei : Arr F S2x800000 .i32) : Arr F S800000 .i32 :=
  shapeCast S800000 (extractStridedSlice S1x800000 ![1, 0] ei slices_S2x800000_S1x800000_1_0) shapeCasts_S1x800000_S800000

/-- jnp's reading of an index: a negative one counts from the end (i + 50000), as a column of start indices. -/
def wrap (ix : Arr F S800000 .i32) : Arr F S800000x1 .i32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- dinv = (1 + in-degree)^(-1/2): ones scattered onto the targets, plus one, inverse square root. -/
def dinv (d : Arr F S800000 .i32) : Arr F S50000 .f32 :=
  Host.rsqrt
    (addf
      (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))

/-- The edge normaliser dinv[s(e)] · dinv[t(e)]. -/
def edgeNorm (s d : Arr F S800000 .i32) : Arr F S800000 .f32 :=
  mulf (Host.gather gather_S50000_S800000x1_S800000_n_0_n_n_0_1_1 (dinv d) (wrap s))
    (Host.gather gather_S50000_S800000x1_S800000_n_0_n_n_0_1_1 (dinv d) (wrap d))

/-- The self-loop normaliser dinv[v]². -/
def selfNorm (d : Arr F S800000 .i32) : Arr F S50000 .f32 := mulf (dinv d) (dinv d)

/-- The rows of `h` at the sources. -/
def rowsPlain (h : Arr F S50000x96 .f32) (s : Arr F S800000 .i32) : Arr F S800000x96 .f32 :=
  Host.gather gather_S50000x96_S800000x1_S800000x96_1_0_n_n_0_1_196 h (wrap s)

/-- The rows of `h` at the sources, gathered from a 16-bit staging of `h` and widened back. -/
def rowsNarrow (h : Arr F S50000x96 .f32) (s : Arr F S800000 .i32) : Arr F S800000x96 .f32 :=
  extf .f32 (Host.gather gather_S50000x96_S800000x1_S800000x96_1_0_n_n_0_1_196 (truncf .bf16 h bitsLt_bf16_f32) (wrap s))
    bitsLt_bf16_f32

/-- Aggregation, self-loop term and bias, from the gathered rows and the two normalisers. -/
def conv (rows : Arr F S800000x96 .f32) (h : Arr F S50000x96 .f32) (d : Arr F S800000 .i32)
    (nrm : Arr F S800000 .f32) (sn : Arr F S50000 .f32) (b : Arr F S96 .f32) : Arr F S50000x96 .f32 :=
  addf
    (addf
      (Host.scatterAdd scatter_S50000x96_S800000x1_S800000x96_1_0_0_1
        (broadcastInDim S50000x96 ![] bcast_S_S50000x96 (constant S_ .f32 0x00000000#32))
        (broadcastInDim S800000x1 ![0] bcast_S800000_S800000x1_0 d)
        (mulf rows
          (broadcastInDim S800000x96 ![0, 1] bcast_S800000x1_S800000x96_0_1
            (broadcastInDim S800000x1 ![0] bcast_S800000_S800000x1_0 nrm))))
      (mulf h
        (broadcastInDim S50000x96 ![0, 1] bcast_S50000x1_S50000x96_0_1
          (broadcastInDim S50000x1 ![0] bcast_S50000_S50000x1_0 sn))))
    (broadcastInDim S50000x96 ![0, 1] bcast_S1x96_S50000x96_0_1 (broadcastInDim S1x96 ![1] bcast_S96_S1x96_1 b))

/-- max(x, 0), entry by entry. -/
def relu (x : Arr F S50000x96 .f32) : Arr F S50000x96 .f32 :=
  maximumf x (broadcastInDim S50000x96 ![] bcast_S_S50000x96 (constant S_ .f32 0x00000000#32))

/-- One layer from the product h = x·W, the edge list and the bias. -/
def layer (h : Arr F S50000x96 .f32) (ei : Arr F S2x800000 .i32) (b : Arr F S96 .f32) : Arr F S50000x96 .f32 :=
  relu (conv (rowsPlain h (src ei)) h (dst ei) (edgeNorm (src ei) (dst ei)) (selfNorm (dst ei)) b)

/-- On the extended reals the 16-bit staging changes no entry: the narrow gather is the plain one. -/
theorem rowsNarrow_eq (h : Arr Ideal S50000x96 .f32) (s : Arr Ideal S800000 .i32) :
    rowsNarrow h s = rowsPlain h s := rfl

end Cert.KernelIdeal.Layer

end
-- ==== Proof.Stretches.lean ====
/-
  What each stretch of host operations between the four matrix products computes, from ANY contents it starts from.

  The first stretch reads only the edge list: it cuts it into sources and targets and computes the two normalisers.
  Each later pair of stretches is one layer's tail: from the product h it gathers the rows at the sources, scales them
  by the edge normaliser, sums them at the targets, adds the self-loop term and the bias, and rectifies.  A stretch
  writes only its own temporaries, so everything else — the edge list's rows, the normalisers, the arguments — is
  still there after it.  Stated for any float values: nothing here depends on what a float is.
-/
import proofs.«132753_j15307263443205_2_alg».proof.Proof.Gen.KernelIdeal.Launch
import proofs.«132753_j15307263443205_2_alg».proof.Proof.Layer
import Idealize.ShloMosaic.Lib.StableHlo.Run

set_option maxRecDepth 16384

noncomputable section

namespace Cert.KernelIdeal.Stretches

open Cert.KernelIdeal Cert.KernelIdeal.Gen Cert.KernelIdeal.Layer
open Idealize.ShloMosaic Idealize.ShloMosaic.TcCoe Idealize.SL.Sem Idealize.ShloMosaic.StableHlo

variable {F : FTy → Type} [FloatOps F]

/-! ## What a stretch leaves alone -/

/-- The buffers the operations of stretch 0 write. -/
abbrev written0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26]
theorem writes0 : (hostOps0 : List (HloOp τ sig (Elt F))).Forall fun op => op.writes ⊆ (written0.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write keeps its contents. -/
theorem keep0 (W : Valuation τ sig (Elt F)) (r : Ref sig .tc) (h : r ∉ written0) :
    StableHlo.after hostOps0 W (Proc.devRef .tc r) = W (Proc.devRef .tc r) :=
  StableHlo.after_of_writes_sub hostOps0 W writes0 h

/-- The buffers the operations of stretch 1 write. -/
abbrev written1 : List (Ref sig .tc) := [main_v28, main_c_5, main_v29, main_v30, main_c_6, main_v31, main_v32, main_v33, main_v34, main_v35, main_v36, main_v37, main_v38, main_v39, main_cst_7, main_v40, main_v41, main_v42, main_v43, main_v44, main_v45, main_v46, main_v47, main_v48, main_v49]
theorem writes1 : (hostOps1 : List (HloOp τ sig (Elt F))).Forall fun op => op.writes ⊆ (written1.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write keeps its contents. -/
theorem keep1 (W : Valuation τ sig (Elt F)) (r : Ref sig .tc) (h : r ∉ written1) :
    StableHlo.after hostOps1 W (Proc.devRef .tc r) = W (Proc.devRef .tc r) :=
  StableHlo.after_of_writes_sub hostOps1 W writes1 h

/-- The buffers the operations of stretch 1_1 write. -/
abbrev written1_1 : List (Ref sig .tc) := [main_call1_cst, main_call1_v0, main_v50]
theorem writes1_1 : (hostOps1_1 : List (HloOp τ sig (Elt F))).Forall fun op => op.writes ⊆ (written1_1.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1_1 does not write keeps its contents. -/
theorem keep1_1 (W : Valuation τ sig (Elt F)) (r : Ref sig .tc) (h : r ∉ written1_1) :
    StableHlo.after hostOps1_1 W (Proc.devRef .tc r) = W (Proc.devRef .tc r) :=
  StableHlo.after_of_writes_sub hostOps1_1 W writes1_1 h

/-- The buffers the operations of stretch 2 write. -/
abbrev written2 : List (Ref sig .tc) := [main_v52, main_c_8, main_v53, main_v54, main_c_9, main_v55, main_v56, main_v57, main_v58, main_v59, main_v60, main_v61, main_v62, main_v63, main_cst_10, main_v64, main_v65, main_v66, main_v67, main_v68, main_v69, main_v70, main_v71, main_v72, main_v73]
theorem writes2 : (hostOps2 : List (HloOp τ sig (Elt F))).Forall fun op => op.writes ⊆ (written2.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write keeps its contents. -/
theorem keep2 (W : Valuation τ sig (Elt F)) (r : Ref sig .tc) (h : r ∉ written2) :
    StableHlo.after hostOps2 W (Proc.devRef .tc r) = W (Proc.devRef .tc r) :=
  StableHlo.after_of_writes_sub hostOps2 W writes2 h

/-- The buffers the operations of stretch 2_1 write. -/
abbrev written2_1 : List (Ref sig .tc) := [main_call3_cst, main_call3_v0, main_v74]
theorem writes2_1 : (hostOps2_1 : List (HloOp τ sig (Elt F))).Forall fun op => op.writes ⊆ (written2_1.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2_1 does not write keeps its contents. -/
theorem keep2_1 (W : Valuation τ sig (Elt F)) (r : Ref sig .tc) (h : r ∉ written2_1) :
    StableHlo.after hostOps2_1 W (Proc.devRef .tc r) = W (Proc.devRef .tc r) :=
  StableHlo.after_of_writes_sub hostOps2_1 W writes2_1 h

/-- The buffers the operations of stretch 3 write. -/
abbrev written3 : List (Ref sig .tc) := [main_v76, main_c_11, main_v77, main_v78, main_c_12, main_v79, main_v80, main_v81, main_v82, main_v83, main_v84, main_v85, main_v86, main_v87, main_cst_13, main_v88, main_v89, main_v90, main_v91, main_v92, main_v93, main_v94, main_v95, main_v96, main_v97]
theorem writes3 : (hostOps3 : List (HloOp τ sig (Elt F))).Forall fun op => op.writes ⊆ (written3.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write keeps its contents. -/
theorem keep3 (W : Valuation τ sig (Elt F)) (r : Ref sig .tc) (h : r ∉ written3) :
    StableHlo.after hostOps3 W (Proc.devRef .tc r) = W (Proc.devRef .tc r) :=
  StableHlo.after_of_writes_sub hostOps3 W writes3 h

/-- The buffers the operations of stretch 3_1 write. -/
abbrev written3_1 : List (Ref sig .tc) := [main_call5_cst, main_call5_v0, main_v98]
theorem writes3_1 : (hostOps3_1 : List (HloOp τ sig (Elt F))).Forall fun op => op.writes ⊆ (written3_1.map (Proc.devRef (τ := τ) .tc)).toFinset := by
  simp only [List.Forall]; refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3_1 does not write keeps its contents. -/
theorem keep3_1 (W : Valuation τ sig (Elt F)) (r : Ref sig .tc) (h : r ∉ written3_1) :
    StableHlo.after hostOps3_1 W (Proc.devRef .tc r) = W (Proc.devRef .tc r) :=
  StableHlo.after_of_writes_sub hostOps3_1 W writes3_1 h

/-! ## The first stretch: the graph's quantities -/

set_option maxHeartbeats 4000000 in
/-- The sources. -/
theorem graph_src (W : Valuation τ sig (Elt F)) :
    StableHlo.after hostOps0 W (Proc.devRef .tc main_v1) = src (W (Proc.devRef .tc main_arg1)) := by
  after_results_simp
  rfl

set_option maxHeartbeats 4000000 in
/-- The targets. -/
theorem graph_dst (W : Valuation τ sig (Elt F)) :
    StableHlo.after hostOps0 W (Proc.devRef .tc main_v3) = dst (W (Proc.devRef .tc main_arg1)) := by
  after_results_simp
  rfl

set_option maxHeartbeats 4000000 in
/-- The edge normaliser. -/
theorem graph_edgeNorm (W : Valuation τ sig (Elt F)) :
    StableHlo.after hostOps0 W (Proc.devRef .tc main_v25)
      = edgeNorm (src (W (Proc.devRef .tc main_arg1))) (dst (W (Proc.devRef .tc main_arg1))) := by
  after_results_simp
  rfl

set_option maxHeartbeats 4000000 in
/-- The self-loop normaliser. -/
theorem graph_selfNorm (W : Valuation τ sig (Elt F)) :
    StableHlo.after hostOps0 W (Proc.devRef .tc main_v26) = selfNorm (dst (W (Proc.devRef .tc main_arg1))) := by
  after_results_simp
  rfl

/-! ## A layer's tail -/

set_option maxHeartbeats 4000000 in
/-- Stretch 1: from the product in `main_v27`, the edge list's rows and the two normalisers it leaves the layer before
    its rectifier in `main_v49`. -/
theorem conv1 (W : Valuation τ sig (Elt F)) :
    StableHlo.after hostOps1 W (Proc.devRef .tc main_v49)
      = conv (rowsNarrow (W (Proc.devRef .tc main_v27)) (W (Proc.devRef .tc main_v1))) (W (Proc.devRef .tc main_v27))
          (W (Proc.devRef .tc main_v3)) (W (Proc.devRef .tc main_v25)) (W (Proc.devRef .tc main_v26)) (W (Proc.devRef .tc main_arg3)) := by
  after_results_simp
  rfl

set_option maxHeartbeats 4000000 in
/-- Stretch 1_1: the rectifier of `main_v49` into `main_v50`. -/
theorem relu1_1 (W : Valuation τ sig (Elt F)) :
    StableHlo.after hostOps1_1 W (Proc.devRef .tc main_v50) = relu (W (Proc.devRef .tc main_v49)) := by
  after_results
  rfl

set_option maxHeartbeats 4000000 in
/-- Stretch 2: from the product in `main_v51`, the edge list's rows and the two normalisers it leaves the layer before
    its rectifier in `main_v73`. -/
theorem conv2 (W : Valuation τ sig (Elt F)) :
    StableHlo.after hostOps2 W (Proc.devRef .tc main_v73)
      = conv (rowsNarrow (W (Proc.devRef .tc main_v51)) (W (Proc.devRef .tc main_v1))) (W (Proc.devRef .tc main_v51))
          (W (Proc.devRef .tc main_v3)) (W (Proc.devRef .tc main_v25)) (W (Proc.devRef .tc main_v26)) (W (Proc.devRef .tc main_arg5)) := by
  after_results_simp
  rfl

set_option maxHeartbeats 4000000 in
/-- Stretch 2_1: the rectifier of `main_v73` into `main_v74`. -/
theorem relu2_1 (W : Valuation τ sig (Elt F)) :
    StableHlo.after hostOps2_1 W (Proc.devRef .tc main_v74) = relu (W (Proc.devRef .tc main_v73)) := by
  after_results
  rfl

set_option maxHeartbeats 4000000 in
/-- Stretch 3: from the product in `main_v75`, the edge list's rows and the two normalisers it leaves the layer before
    its rectifier in `main_v97`. -/
theorem conv3 (W : Valuation τ sig (Elt F)) :
    StableHlo.after hostOps3 W (Proc.devRef .tc main_v97)
      = conv (rowsNarrow (W (Proc.devRef .tc main_v75)) (W (Proc.devRef .tc main_v1))) (W (Proc.devRef .tc main_v75))
          (W (Proc.devRef .tc main_v3)) (W (Proc.devRef .tc main_v25)) (W (Proc.devRef .tc main_v26)) (W (Proc.devRef .tc main_arg7)) := by
  after_results_simp
  rfl

set_option maxHeartbeats 4000000 in
/-- Stretch 3_1: the rectifier of `main_v97` into `main_v98`. -/
theorem relu3_1 (W : Valuation τ sig (Elt F)) :
    StableHlo.after hostOps3_1 W (Proc.devRef .tc main_v98) = relu (W (Proc.devRef .tc main_v97)) := by
  after_results
  rfl

end Cert.KernelIdeal.Stretches

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMatProd.lean ====
/-
  The product of two matrices on the extended reals as ONE whole-array function, and two ways a program spells it.

  For an [m, K] matrix l and a [K, n] matrix r the product is the [m, n] matrix whose entry (p, q) is
  Σ_k l(p, k) · r(k, q).  The host's `dot_general` of the plain form (axis 1 of the left against axis 0 of the right,
  no batch axis) IS that matrix, and so is a kernel's `tpu.matmul` of the same form accumulated into the zero splat:
  both are the textbook sum at every entry, and a matrix is its entries.  No finiteness is used: nothing is
  re-associated or distributed.
-/
import proofs.«132753_j15307263443205_2_alg».proof.Proof.LibPlainMatmul

noncomputable section

namespace Cert.MatProd

open Idealize.ShloMosaic Idealize.ShloMosaic.ValueIdx

/-- The matrix product, entry by entry. -/
def matProd {m K n : ℕ} (l : (⟨2, ![m, K]⟩ : Shape).Idx → EReal) (r : (⟨2, ![K, n]⟩ : Shape).Idx → EReal) :
    (⟨2, ![m, n]⟩ : Shape).Idx → EReal :=
  fun i => ∑ k : Fin K, l (ix2 (i 0) k) * r (ix2 k (i 1))

/-- The product read at (p, q). -/
theorem matProd_apply {m K n : ℕ} (l : (⟨2, ![m, K]⟩ : Shape).Idx → EReal) (r : (⟨2, ![K, n]⟩ : Shape).Idx → EReal)
    (p : Fin m) (q : Fin n) : matProd l r (ix2 p q) = ∑ k : Fin K, l (ix2 p k) * r (ix2 k q) := rfl

/-- The host's plain `dot_general` is the matrix product, as a whole array, under any schedule key. -/
theorem dotGeneral_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) :
    FloatOps.dotGeneral (PlainMatmul.plain wf) prec sched l r = matProd l r := by
  funext i
  obtain ⟨p, q, rfl⟩ : ∃ (p : Fin m) (q : Fin n), i = ix2 p q := ⟨i 0, i 1, eq_ix2 i⟩
  exact PlainMatmul.dotGeneral_apply wf prec sched l r p q

/-- A kernel's plain `tpu.matmul` into the zero splat is the matrix product, as a whole block. -/
theorem matmul_zero_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) :
    FloatOps.matmul (PlainMatmul.plain wf) prec l r (constant (⟨2, ![m, n]⟩ : Shape) .f32 0x00000000#32) = matProd l r := by
  funext i
  obtain ⟨p, q, rfl⟩ : ∃ (p : Fin m) (q : Fin n), i = ix2 p q := ⟨i 0, i 1, eq_ix2 i⟩
  exact PlainMatmul.matmul_zero_apply wf prec l r p q

end Cert.MatProd

end
-- ==== Proof.RegionProduct.lean ====
/-
  Each of the four blocked regions leaves in its output array ONE whole-array function of the arrays it reads: a
  matrix product, and in the last region a matrix product plus a bias row.

  A region multiplies a [50000, K] array by a [K, n] matrix in ten blocks of 5000 rows.  At grid point t it reads rows
  5000·t … 5000·t + 4999 of the left array and the whole right matrix, and writes their product to the same rows of the
  output array.  Row p of a block's product is row 5000·t + p of the product of the two whole arrays: entry (p, q) is
  the sum over the contracted axis of left(5000·t + p, k) · right(k, q), term by term the same sum.  So what point t
  writes back is block t of the whole product; row r of the output lies in the block of point r / 5000, so the ten
  blocks cover the array, and the array ends holding the product.  The last region adds the bias vector to every row:
  entry (r, q) is the product's entry plus bias(q).  On the extended reals the roundings to bf16 on the way into a
  product are the identity and a shape cast of a shape to itself changes nothing, so nothing else is in a block's value.
  Nothing is re-associated, so no finiteness is used.  Each statement holds for ANY contents of the buffers at the
  region's entry.
-/
import proofs.«132753_j15307263443205_2_alg».proof.Proof.Gen.KernelIdeal.Frame
import proofs.«132753_j15307263443205_2_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionProduct

open Cert.KernelIdeal Cert.KernelIdeal.Gen
open Idealize.ShloMosaic Idealize.ShloMosaic.TcCoe Idealize.ShloMosaic.ValueIdx Idealize.SL.Sem
open Idealize.ShloMosaic.Pipeline (Dat)
open Cert.MatProd (matProd)

variable (V : (c : Dev nD) → (b : Ref sig .tc) → Buf (Elt Ideal) ((c : Thread nD τ).loc b)) (c : Dev nD)

/-- The zero offsets of an access to a whole rank-2 block, however the zeros are spelt. -/
theorem zero_offsets2 : (![0, 0] : Fin 2 → Nat) = fun _ => 0 := funext fun a => by fin_cases a <;> rfl

/-- The same for a whole vector. -/
theorem zero_offsets1 : (![0] : Fin 1 → Nat) = fun _ => 0 := funext fun a => by fin_cases a; rfl

/-- Row `p` of the product of a row block with the right matrix is row `r` of the product of the whole left matrix
    with it, when row `p` of the block is row `r` of the left matrix: entry (p, q) is the same sum over the contracted
    axis, term by term. -/
theorem matProd_rows {M m K n : ℕ} (A : (⟨2, ![M, K]⟩ : Shape).Idx → EReal) (W : (⟨2, ![K, n]⟩ : Shape).Idx → EReal)
    (x : (⟨2, ![m, K]⟩ : Shape).Idx → EReal) (w : (⟨2, ![K, n]⟩ : Shape).Idx → EReal)
    (p : Fin m) (q : Fin n) (r : Fin M)
    (hx : ∀ k : Fin K, x (ix2 p k) = A (ix2 r k)) (hw : ∀ k : Fin K, w (ix2 k q) = W (ix2 k q)) :
    matProd x w (ix2 p q) = matProd A W (ix2 r q) := by
  rw [Cert.MatProd.matProd_apply, Cert.MatProd.matProd_apply]
  exact Finset.sum_congr rfl fun k _ => by rw [hx k, hw k]

/-! ## The first region: [50000, 512] by [512, 96] -/

/-- The value a grid point stores is the product of the two blocks it loaded:
    the roundings into the product are the identity on the extended reals, and the accumulator starts at zero. -/
theorem product0 (x0 : Vec Ideal S5000x512 .f32) (x1 : Vec Ideal S512x96 .f32) :
    Gen.k0_pay1 x0 x1 = matProd x0 x1 :=
  Cert.MatProd.matmul_zero_eq dot_S5000x512_S512x96_S5000x96_1_0_0_1_n_n_wf none _ _

/-- Entry (p, q) of that value is entry (r, q) of the product of the whole arrays `A`, `W`, when row `p` of the left
    block is row `r` of `A` and the right block is `W` (on the entries the sum reads). -/
theorem product0_at (A : S50000x512.Idx → EReal) (W : S512x96.Idx → EReal)
    (x0 : Vec Ideal S5000x512 .f32) (x1 : Vec Ideal S512x96 .f32) (p : Fin 5000) (q : Fin 96)
    (i : S50000x96.Idx) (r : Fin 50000) (hi : i = ix2 r q)
    (hx : ∀ k : Fin 512, x0 (ix2 p k) = A (ix2 r k)) (hw : ∀ k : Fin 512, x1 (ix2 k q) = W (ix2 k q)) :
    Gen.k0_pay1 x0 x1 (ix2 p q) = matProd A W i := by
  rw [product0, hi]; exact matProd_rows A W x0 x1 p q r hx hw

/-- The block indices over the grid: at point `t` the left array's block is (t, 0), the right matrix's (0, 0), the
    output's (t, 0). -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two whole arrays: row `p` of the block is row
    5000·t + p of the left array, and the right block is the whole right matrix. -/
theorem written_back0 (t : Fin cfg0.N) :
    (Gen.dat0 (F := Ideal) V c).flushed 2 t
      = ((cfg0.win 2).blk t).view.read (Elt Ideal) (matProd (V c main_arg0) (V c main_arg2)) := by
  show (cfg0.win 2).cut (grid0.coords t) ((Gen.dat0 (F := Ideal) V c).after 2 t) = _
  rw [Gen.after0_2]
  unfold Gen.out0_2
  rw [View.canon_unit_zero zero_offsets2]
  simp only [View.ld_unit_zero (S := S5000x512) zero_offsets2, View.ld_unit_zero (S := S512x96) zero_offsets2]
  obtain ⟨a0, a1, b0, b1, o0, o1⟩ := block_index0 t
  have ht : t.val < 10 := t.isLt
  funext j
  obtain ⟨p, q, rfl⟩ : ∃ (p : Fin 5000) (q : Fin 96), j = ix2 p q := ⟨j 0, j 1, eq_ix2 j⟩
  have hp : p.val < 5000 := p.isLt
  show Gen.k0_pay1 (Gen.iblk0 V c 0 t) (Gen.iblk0 V c 1 t) (ix2 p q)
    = matProd (V c main_arg0) (V c main_arg2) (((cfg0.win 2).blk t).view.emb (ix2 p q))
  refine product0_at (V c main_arg0) (V c main_arg2) _ _ p q _ ⟨t.val * 5000 + p.val, by omega⟩ ?_ ?_ ?_
  · funext a; apply Fin.ext
    match a with
    | ⟨0, _⟩ => show win0_2.index t (0 : Fin 2) * 5000 + 1 * p.val = t.val * 5000 + p.val; omega
    | ⟨1, _⟩ => show win0_2.index t (1 : Fin 2) * 96 + 1 * q.val = q.val; omega
  · intro k
    show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 512 + 1 * k.val = k.val; omega
  · intro k
    show V c main_arg2 (((cfg0.win 1).blk t).view.emb (ix2 k q)) = V c main_arg2 (ix2 k q)
    refine congrArg _ (funext fun a => Fin.ext ?_)
    match a with
    | ⟨0, _⟩ => show win0_1.index t (0 : Fin 2) * 512 + 1 * k.val = k.val; omega
    | ⟨1, _⟩ => show win0_1.index t (1 : Fin 2) * 96 + 1 * q.val = q.val; omega

/-- An index of the output array is in point `t`'s block iff each coordinate is in the block's range on its axis. -/
theorem mem_block0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v27).slice (win0_2.rect t)).set ↔ _
  rw [View.set_slice_whole, Rect.mem_set_unit]
  exact Iff.rfl

/-- The ten blocks cover the output array: row `r` lies in the block of point `r / 5000`. -/
theorem cover0 (i : S50000x96.Idx) :
    ∃ t : Fin cfg0.N, (cfg0.win 2).flush t = true ∧ i ∈ ((cfg0.win 2).blk t).view.set := by
  have h0 : (i 0).val < 50000 := (i 0).isLt
  have h1 : (i 1).val < 96 := (i 1).isLt
  have hd : (i 0).val / 5000 < 10 := by omega
  obtain ⟨-, -, -, -, o0, o1⟩ := block_index0 ⟨(i 0).val / 5000, hd⟩
  refine ⟨⟨(i 0).val / 5000, hd⟩, Gen.flush0_2 _, ?_⟩
  rw [mem_block0]
  intro a
  match a with
  | ⟨0, _⟩ =>
    show win0_2.index ⟨(i 0).val / 5000, hd⟩ (0 : Fin 2) * 5000 ≤ (i 0).val
      ∧ (i 0).val < win0_2.index ⟨(i 0).val / 5000, hd⟩ (0 : Fin 2) * 5000 + 5000
    rw [o0]; show (i 0).val / 5000 * 5000 ≤ (i 0).val ∧ (i 0).val < (i 0).val / 5000 * 5000 + 5000; omega
  | ⟨1, _⟩ =>
    show win0_2.index ⟨(i 0).val / 5000, hd⟩ (1 : Fin 2) * 96 ≤ (i 1).val
      ∧ (i 1).val < win0_2.index ⟨(i 0).val / 5000, hd⟩ (1 : Fin 2) * 96 + 96
    rw [o1]; omega

/-- The first region's output array ends holding the product of the two arrays it reads. -/
theorem arr0 : (Gen.dat0 (F := Ideal) V c).arrAt 2 cfg0.N = matProd (V c main_arg0) (V c main_arg2) :=
  (Gen.dat0 (F := Ideal) V c).arrAt_eq_of_cover 2 (matProd (V c main_arg0) (V c main_arg2))
    (fun t _ => written_back0 V c t) cover0

/-! ## The second region: [50000, 96] by [96, 96] -/

/-- The value a grid point stores is the product of the two blocks it loaded (the shape cast is of a shape to itself):
    the roundings into the product are the identity on the extended reals, and the accumulator starts at zero. -/
theorem product1 (x0 : Vec Ideal S5000x96 .f32) (x1 : Vec Ideal S96x96 .f32) :
    Gen.k1_pay1 x0 x1 = matProd x0 x1 := by
  unfold Gen.k1_pay1
  rw [shapeCast_self]
  exact Cert.MatProd.matmul_zero_eq dot_S5000x96_S96x96_S5000x96_1_0_0_1_n_n_wf none _ _

/-- Entry (p, q) of that value is entry (r, q) of the product of the whole arrays `A`, `W`, when row `p` of the left
    block is row `r` of `A` and the right block is `W` (on the entries the sum reads). -/
theorem product1_at (A : S50000x96.Idx → EReal) (W : S96x96.Idx → EReal)
    (x0 : Vec Ideal S5000x96 .f32) (x1 : Vec Ideal S96x96 .f32) (p : Fin 5000) (q : Fin 96)
    (i : S50000x96.Idx) (r : Fin 50000) (hi : i = ix2 r q)
    (hx : ∀ k : Fin 96, x0 (ix2 p k) = A (ix2 r k)) (hw : ∀ k : Fin 96, x1 (ix2 k q) = W (ix2 k q)) :
    Gen.k1_pay1 x0 x1 (ix2 p q) = matProd A W i := by
  rw [product1, hi]; exact matProd_rows A W x0 x1 p q r hx hw

/-- The block indices over the grid: at point `t` the left array's block is (t, 0), the right matrix's (0, 0), the
    output's (t, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two whole arrays: row `p` of the block is row
    5000·t + p of the left array, and the right block is the whole right matrix. -/
theorem written_back1 (t : Fin cfg1.N) :
    (Gen.dat1 (F := Ideal) V c).flushed 2 t
      = ((cfg1.win 2).blk t).view.read (Elt Ideal) (matProd (V c main_v50) (V c main_arg4)) := by
  show (cfg1.win 2).cut (grid1.coords t) ((Gen.dat1 (F := Ideal) V c).after 2 t) = _
  rw [Gen.after1_2]
  unfold Gen.out1_2
  rw [View.canon_unit_zero zero_offsets2]
  simp only [View.ld_unit_zero (S := S5000x96) zero_offsets2, View.ld_unit_zero (S := S96x96) zero_offsets2]
  obtain ⟨a0, a1, b0, b1, o0, o1⟩ := block_index1 t
  have ht : t.val < 10 := t.isLt
  funext j
  obtain ⟨p, q, rfl⟩ : ∃ (p : Fin 5000) (q : Fin 96), j = ix2 p q := ⟨j 0, j 1, eq_ix2 j⟩
  have hp : p.val < 5000 := p.isLt
  show Gen.k1_pay1 (Gen.iblk1 V c 0 t) (Gen.iblk1 V c 1 t) (ix2 p q)
    = matProd (V c main_v50) (V c main_arg4) (((cfg1.win 2).blk t).view.emb (ix2 p q))
  refine product1_at (V c main_v50) (V c main_arg4) _ _ p q _ ⟨t.val * 5000 + p.val, by omega⟩ ?_ ?_ ?_
  · funext a; apply Fin.ext
    match a with
    | ⟨0, _⟩ => show win1_2.index t (0 : Fin 2) * 5000 + 1 * p.val = t.val * 5000 + p.val; omega
    | ⟨1, _⟩ => show win1_2.index t (1 : Fin 2) * 96 + 1 * q.val = q.val; omega
  · intro k
    show V c main_v50 (((cfg1.win 0).blk t).view.emb (ix2 p k)) = V c main_v50 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 96 + 1 * k.val = k.val; omega
  · intro k
    show V c main_arg4 (((cfg1.win 1).blk t).view.emb (ix2 k q)) = V c main_arg4 (ix2 k q)
    refine congrArg _ (funext fun a => Fin.ext ?_)
    match a with
    | ⟨0, _⟩ => show win1_1.index t (0 : Fin 2) * 96 + 1 * k.val = k.val; omega
    | ⟨1, _⟩ => show win1_1.index t (1 : Fin 2) * 96 + 1 * q.val = q.val; omega

/-- An index of the output array is in point `t`'s block iff each coordinate is in the block's range on its axis. -/
theorem mem_block1 (t : Fin cfg1.N) (i : S50000x96.Idx) :
    i ∈ ((cfg1.win 2).blk t).view.set ↔ ∀ a : Fin 2, win1_2.index t a * S5000x96.size a ≤ (i a).val
      ∧ (i a).val < win1_2.index t a * S5000x96.size a + S5000x96.size a := by
  show i ∈ ((View.whole main_v51).slice (win1_2.rect t)).set ↔ _
  rw [View.set_slice_whole, Rect.mem_set_unit]
  exact Iff.rfl

/-- The ten blocks cover the output array: row `r` lies in the block of point `r / 5000`. -/
theorem cover1 (i : S50000x96.Idx) :
    ∃ t : Fin cfg1.N, (cfg1.win 2).flush t = true ∧ i ∈ ((cfg1.win 2).blk t).view.set := by
  have h0 : (i 0).val < 50000 := (i 0).isLt
  have h1 : (i 1).val < 96 := (i 1).isLt
  have hd : (i 0).val / 5000 < 10 := by omega
  obtain ⟨-, -, -, -, o0, o1⟩ := block_index1 ⟨(i 0).val / 5000, hd⟩
  refine ⟨⟨(i 0).val / 5000, hd⟩, Gen.flush1_2 _, ?_⟩
  rw [mem_block1]
  intro a
  match a with
  | ⟨0, _⟩ =>
    show win1_2.index ⟨(i 0).val / 5000, hd⟩ (0 : Fin 2) * 5000 ≤ (i 0).val
      ∧ (i 0).val < win1_2.index ⟨(i 0).val / 5000, hd⟩ (0 : Fin 2) * 5000 + 5000
    rw [o0]; show (i 0).val / 5000 * 5000 ≤ (i 0).val ∧ (i 0).val < (i 0).val / 5000 * 5000 + 5000; omega
  | ⟨1, _⟩ =>
    show win1_2.index ⟨(i 0).val / 5000, hd⟩ (1 : Fin 2) * 96 ≤ (i 1).val
      ∧ (i 1).val < win1_2.index ⟨(i 0).val / 5000, hd⟩ (1 : Fin 2) * 96 + 96
    rw [o1]; omega

/-- The second region's output array ends holding the product of the two arrays it reads. -/
theorem arr1 : (Gen.dat1 (F := Ideal) V c).arrAt 2 cfg1.N = matProd (V c main_v50) (V c main_arg4) :=
  (Gen.dat1 (F := Ideal) V c).arrAt_eq_of_cover 2 (matProd (V c main_v50) (V c main_arg4))
    (fun t _ => written_back1 V c t) cover1

/-! ## The third region: [50000, 96] by [96, 96] -/

/-- The value a grid point stores is the product of the two blocks it loaded (the shape cast is of a shape to itself):
    the roundings into the product are the identity on the extended reals, and the accumulator starts at zero. -/
theorem product2 (x0 : Vec Ideal S5000x96 .f32) (x1 : Vec Ideal S96x96 .f32) :
    Gen.k2_pay1 x0 x1 = matProd x0 x1 := by
  unfold Gen.k2_pay1
  rw [shapeCast_self]
  exact Cert.MatProd.matmul_zero_eq dot_S5000x96_S96x96_S5000x96_1_0_0_1_n_n_wf none _ _

/-- Entry (p, q) of that value is entry (r, q) of the product of the whole arrays `A`, `W`, when row `p` of the left
    block is row `r` of `A` and the right block is `W` (on the entries the sum reads). -/
theorem product2_at (A : S50000x96.Idx → EReal) (W : S96x96.Idx → EReal)
    (x0 : Vec Ideal S5000x96 .f32) (x1 : Vec Ideal S96x96 .f32) (p : Fin 5000) (q : Fin 96)
    (i : S50000x96.Idx) (r : Fin 50000) (hi : i = ix2 r q)
    (hx : ∀ k : Fin 96, x0 (ix2 p k) = A (ix2 r k)) (hw : ∀ k : Fin 96, x1 (ix2 k q) = W (ix2 k q)) :
    Gen.k2_pay1 x0 x1 (ix2 p q) = matProd A W i := by
  rw [product2, hi]; exact matProd_rows A W x0 x1 p q r hx hw

/-- The block indices over the grid: at point `t` the left array's block is (t, 0), the right matrix's (0, 0), the
    output's (t, 0). -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two whole arrays: row `p` of the block is row
    5000·t + p of the left array, and the right block is the whole right matrix. -/
theorem written_back2 (t : Fin cfg2.N) :
    (Gen.dat2 (F := Ideal) V c).flushed 2 t
      = ((cfg2.win 2).blk t).view.read (Elt Ideal) (matProd (V c main_v74) (V c main_arg6)) := by
  show (cfg2.win 2).cut (grid2.coords t) ((Gen.dat2 (F := Ideal) V c).after 2 t) = _
  rw [Gen.after2_2]
  unfold Gen.out2_2
  rw [View.canon_unit_zero zero_offsets2]
  simp only [View.ld_unit_zero (S := S5000x96) zero_offsets2, View.ld_unit_zero (S := S96x96) zero_offsets2]
  obtain ⟨a0, a1, b0, b1, o0, o1⟩ := block_index2 t
  have ht : t.val < 10 := t.isLt
  funext j
  obtain ⟨p, q, rfl⟩ : ∃ (p : Fin 5000) (q : Fin 96), j = ix2 p q := ⟨j 0, j 1, eq_ix2 j⟩
  have hp : p.val < 5000 := p.isLt
  show Gen.k2_pay1 (Gen.iblk2 V c 0 t) (Gen.iblk2 V c 1 t) (ix2 p q)
    = matProd (V c main_v74) (V c main_arg6) (((cfg2.win 2).blk t).view.emb (ix2 p q))
  refine product2_at (V c main_v74) (V c main_arg6) _ _ p q _ ⟨t.val * 5000 + p.val, by omega⟩ ?_ ?_ ?_
  · funext a; apply Fin.ext
    match a with
    | ⟨0, _⟩ => show win2_2.index t (0 : Fin 2) * 5000 + 1 * p.val = t.val * 5000 + p.val; omega
    | ⟨1, _⟩ => show win2_2.index t (1 : Fin 2) * 96 + 1 * q.val = q.val; omega
  · intro k
    show V c main_v74 (((cfg2.win 0).blk t).view.emb (ix2 p k)) = V c main_v74 (ix2 _ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 96 + 1 * k.val = k.val; omega
  · intro k
    show V c main_arg6 (((cfg2.win 1).blk t).view.emb (ix2 k q)) = V c main_arg6 (ix2 k q)
    refine congrArg _ (funext fun a => Fin.ext ?_)
    match a with
    | ⟨0, _⟩ => show win2_1.index t (0 : Fin 2) * 96 + 1 * k.val = k.val; omega
    | ⟨1, _⟩ => show win2_1.index t (1 : Fin 2) * 96 + 1 * q.val = q.val; omega

/-- An index of the output array is in point `t`'s block iff each coordinate is in the block's range on its axis. -/
theorem mem_block2 (t : Fin cfg2.N) (i : S50000x96.Idx) :
    i ∈ ((cfg2.win 2).blk t).view.set ↔ ∀ a : Fin 2, win2_2.index t a * S5000x96.size a ≤ (i a).val
      ∧ (i a).val < win2_2.index t a * S5000x96.size a + S5000x96.size a := by
  show i ∈ ((View.whole main_v75).slice (win2_2.rect t)).set ↔ _
  rw [View.set_slice_whole, Rect.mem_set_unit]
  exact Iff.rfl

/-- The ten blocks cover the output array: row `r` lies in the block of point `r / 5000`. -/
theorem cover2 (i : S50000x96.Idx) :
    ∃ t : Fin cfg2.N, (cfg2.win 2).flush t = true ∧ i ∈ ((cfg2.win 2).blk t).view.set := by
  have h0 : (i 0).val < 50000 := (i 0).isLt
  have h1 : (i 1).val < 96 := (i 1).isLt
  have hd : (i 0).val / 5000 < 10 := by omega
  obtain ⟨-, -, -, -, o0, o1⟩ := block_index2 ⟨(i 0).val / 5000, hd⟩
  refine ⟨⟨(i 0).val / 5000, hd⟩, Gen.flush2_2 _, ?_⟩
  rw [mem_block2]
  intro a
  match a with
  | ⟨0, _⟩ =>
    show win2_2.index ⟨(i 0).val / 5000, hd⟩ (0 : Fin 2) * 5000 ≤ (i 0).val
      ∧ (i 0).val < win2_2.index ⟨(i 0).val / 5000, hd⟩ (0 : Fin 2) * 5000 + 5000
    rw [o0]; show (i 0).val / 5000 * 5000 ≤ (i 0).val ∧ (i 0).val < (i 0).val / 5000 * 5000 + 5000; omega
  | ⟨1, _⟩ =>
    show win2_2.index ⟨(i 0).val / 5000, hd⟩ (1 : Fin 2) * 96 ≤ (i 1).val
      ∧ (i 1).val < win2_2.index ⟨(i 0).val / 5000, hd⟩ (1 : Fin 2) * 96 + 96
    rw [o1]; omega

/-- The third region's output array ends holding the product of the two arrays it reads. -/
theorem arr2 : (Gen.dat2 (F := Ideal) V c).arrAt 2 cfg2.N = matProd (V c main_v74) (V c main_arg6) :=
  (Gen.dat2 (F := Ideal) V c).arrAt_eq_of_cover 2 (matProd (V c main_v74) (V c main_arg6))
    (fun t _ => written_back2 V c t) cover2

/-! ## The last region: [50000, 96] by [96, 64], plus the bias row -/

/-- The bias vector, viewed as one row and spread over the block's rows, read at (p, q), is the bias at `q`. -/
theorem bias_rows (x2 : Vec Ideal S64 .f32) (p : Fin 5000) (q : Fin 64) :
    broadcastTo S5000x64 (shapeCast S1x64 x2 shapeCasts_S64_S1x64) broadcasts_S1x64_S5000x64 (ix2 p q) = x2 (ix1 q) :=
  (broadcastTo_1b_ab_apply _ _ p q).trans (shapeCast_a_1a_apply x2 _ 0 q)

/-- The value a grid point stores is the product of the two blocks it loaded (the shape cast is of a shape to itself)
    plus the bias row spread over the block's rows. -/
theorem product3 (x0 : Vec Ideal S5000x96 .f32) (x1 : Vec Ideal S96x64 .f32) (x2 : Vec Ideal S64 .f32) :
    Gen.k3_pay1 x0 x1 x2
      = addf (matProd x0 x1 : FVec Ideal S5000x64 .f32)
          (broadcastTo S5000x64 (shapeCast S1x64 x2 shapeCasts_S64_S1x64) broadcasts_S1x64_S5000x64) := by
  unfold Gen.k3_pay1
  rw [shapeCast_self]
  exact congrArg (fun z : FVec Ideal S5000x64 .f32 => addf z _)
    (Cert.MatProd.matmul_zero_eq dot_S5000x96_S96x64_S5000x64_1_0_0_1_n_n_wf none _ _)

/-- Entry (p, q) of that value is entry (r, q) of the product of the whole arrays `A`, `W` plus the bias `b` at `q`,
    when row `p` of the left block is row `r` of `A`, the right block is `W` and the bias block is `b` (on the
    entries read). -/
theorem product3_at (A : S50000x96.Idx → EReal) (W : S96x64.Idx → EReal) (b : S64.Idx → EReal)
    (x0 : Vec Ideal S5000x96 .f32) (x1 : Vec Ideal S96x64 .f32) (x2 : Vec Ideal S64 .f32) (p : Fin 5000) (q : Fin 64)
    (i : S50000x64.Idx) (r : Fin 50000) (hi : i = ix2 r q)
    (hx : ∀ k : Fin 96, x0 (ix2 p k) = A (ix2 r k)) (hw : ∀ k : Fin 96, x1 (ix2 k q) = W (ix2 k q))
    (hb : x2 (ix1 q) = b (ix1 q)) :
    Gen.k3_pay1 x0 x1 x2 (ix2 p q) = matProd A W i + b (ix1 (i 1)) := by
  subst hi
  rw [product3]
  show matProd x0 x1 (ix2 p q)
      + broadcastTo S5000x64 (shapeCast S1x64 x2 shapeCasts_S64_S1x64) broadcasts_S1x64_S5000x64 (ix2 p q)
    = matProd A W (ix2 r q) + b (ix1 q)
  rw [bias_rows, hb, matProd_rows A W x0 x1 p q r hx hw]

/-- The block indices over the grid: at point `t` the left array's block is (t, 0), the right matrix's (0, 0), the
    bias vector's 0, the output's (t, 0). -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- What point `t` writes back is block `t` of the whole product plus the bias on every row: row `p` of the block is
    row 5000·t + p of the left array, and the right block and the bias block are the whole right matrix and vector. -/
theorem written_back3 (t : Fin cfg3.N) :
    (Gen.dat3 (F := Ideal) V c).flushed 3 t
      = ((cfg3.win 3).blk t).view.read (Elt Ideal)
          (fun i : S50000x64.Idx => matProd (V c main_v98) (V c main_arg8) i + V c main_arg9 (ix1 (i 1))) := by
  show (cfg3.win 3).cut (grid3.coords t) ((Gen.dat3 (F := Ideal) V c).after 3 t) = _
  rw [Gen.after3_3]
  unfold Gen.out3_3
  rw [View.canon_unit_zero zero_offsets2]
  simp only [View.ld_unit_zero (S := S5000x96) zero_offsets2, View.ld_unit_zero (S := S96x64) zero_offsets2,
    View.ld_unit_zero (S := S64) zero_offsets1]
  obtain ⟨a0, a1, b0, b1, d0, o0, o1⟩ := block_index3 t
  have ht : t.val < 10 := t.isLt
  funext j
  obtain ⟨p, q, rfl⟩ : ∃ (p : Fin 5000) (q : Fin 64), j = ix2 p q := ⟨j 0, j 1, eq_ix2 j⟩
  have hp : p.val < 5000 := p.isLt
  show Gen.k3_pay1 (Gen.iblk3 V c 0 t) (Gen.iblk3 V c 1 t) (Gen.iblk3 V c 2 t) (ix2 p q)
    = matProd (V c main_v98) (V c main_arg8) (((cfg3.win 3).blk t).view.emb (ix2 p q))
      + V c main_arg9 (ix1 ((((cfg3.win 3).blk t).view.emb (ix2 p q)) 1))
  refine product3_at (V c main_v98) (V c main_arg8) (V c main_arg9) _ _ _ p q _ ⟨t.val * 5000 + p.val, by omega⟩
    ?_ ?_ ?_ ?_
  · funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  · intro k
    show V c main_v98 (((cfg3.win 0).blk t).view.emb (ix2 p k)) = V c main_v98 (ix2 _ k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 96 + 1 * k.val = k.val; omega
  · intro k
    show V c main_arg8 (((cfg3.win 1).blk t).view.emb (ix2 k q)) = V c main_arg8 (ix2 k q)
    refine congrArg _ (funext fun a => Fin.ext ?_)
    match a with
    | ⟨0, _⟩ => show win3_1.index t (0 : Fin 2) * 96 + 1 * k.val = k.val; omega
    | ⟨1, _⟩ => show win3_1.index t (1 : Fin 2) * 64 + 1 * q.val = q.val; omega
  · show V c main_arg9 (((cfg3.win 2).blk t).view.emb (ix1 q)) = V c main_arg9 (ix1 q)
    refine congrArg _ (funext fun a => Fin.ext ?_)
    match a with
    | ⟨0, _⟩ => show win3_2.index t (0 : Fin 1) * 64 + 1 * q.val = q.val; omega

/-- An index of the output array is in point `t`'s block iff each coordinate is in the block's range on its axis. -/
theorem mem_block3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v99).slice (win3_3.rect t)).set ↔ _
  rw [View.set_slice_whole, Rect.mem_set_unit]
  exact Iff.rfl

/-- The ten blocks cover the output array: row `r` lies in the block of point `r / 5000`. -/
theorem cover3 (i : S50000x64.Idx) :
    ∃ t : Fin cfg3.N, (cfg3.win 3).flush t = true ∧ i ∈ ((cfg3.win 3).blk t).view.set := by
  have h0 : (i 0).val < 50000 := (i 0).isLt
  have h1 : (i 1).val < 64 := (i 1).isLt
  have hd : (i 0).val / 5000 < 10 := by omega
  obtain ⟨-, -, -, -, -, o0, o1⟩ := block_index3 ⟨(i 0).val / 5000, hd⟩
  refine ⟨⟨(i 0).val / 5000, hd⟩, Gen.flush3_3 _, ?_⟩
  rw [mem_block3]
  intro a
  match a with
  | ⟨0, _⟩ =>
    show win3_3.index ⟨(i 0).val / 5000, hd⟩ (0 : Fin 2) * 5000 ≤ (i 0).val
      ∧ (i 0).val < win3_3.index ⟨(i 0).val / 5000, hd⟩ (0 : Fin 2) * 5000 + 5000
    rw [o0]; show (i 0).val / 5000 * 5000 ≤ (i 0).val ∧ (i 0).val < (i 0).val / 5000 * 5000 + 5000; omega
  | ⟨1, _⟩ =>
    show win3_3.index ⟨(i 0).val / 5000, hd⟩ (1 : Fin 2) * 64 ≤ (i 1).val
      ∧ (i 1).val < win3_3.index ⟨(i 0).val / 5000, hd⟩ (1 : Fin 2) * 64 + 64
    rw [o1]; omega

/-- The last region's output array ends holding the product of the two arrays it reads plus the bias on every row. -/
theorem arr3 : (Gen.dat3 (F := Ideal) V c).arrAt 3 cfg3.N
    = fun i => Cert.MatProd.matProd (V c main_v98) (V c main_arg8) i + V c main_arg9 (ValueIdx.ix1 (i 1)) :=
  (Gen.dat3 (F := Ideal) V c).arrAt_eq_of_cover 3
    (fun i : S50000x64.Idx => matProd (V c main_v98) (V c main_arg8) i + V c main_arg9 (ix1 (i 1)))
    (fun t _ => written_back3 V c t) cover3

end Cert.KernelIdeal.RegionProduct

end
-- ==== Proof.Network.lean ====
/-
  The whole network as one function of the ten argument arrays.

  Three graph-convolution layers, each the product of the previous activations by a weight matrix followed by the
  layer's tail (aggregation over the edges, self-loop term, bias, rectifier), then a last product with a bias added
  along the rows:   out = relu(conv(relu(conv(relu(conv(x·W0))·W1))·W2))·fcW + fcb.
  The products are whole-array matrix products on the extended reals.
-/
import proofs.«132753_j15307263443205_2_alg».proof.Proof.Layer
import proofs.«132753_j15307263443205_2_alg».proof.Proof.LibMatProd

noncomputable section

namespace Cert.KernelIdeal.Network

open Cert.KernelIdeal Cert.KernelIdeal.Layer Cert.MatProd Idealize.ShloMosaic Idealize.ShloMosaic.ValueIdx

variable [Cert.KernelIdeal.Facts]

/-- Activations after the first layer. -/
def act1 (x : Arr Ideal S50000x512 .f32) (ei : Arr Ideal S2x800000 .i32) (W0 : Arr Ideal S512x96 .f32) (b0 : Arr Ideal S96 .f32) :
    Arr Ideal S50000x96 .f32 :=
  layer (matProd (m := 50000) (K := 512) (n := 96) x W0) ei b0

/-- Activations after a further layer. -/
def actNext (h : Arr Ideal S50000x96 .f32) (ei : Arr Ideal S2x800000 .i32) (W : Arr Ideal S96x96 .f32) (b : Arr Ideal S96 .f32) :
    Arr Ideal S50000x96 .f32 :=
  layer (matProd (m := 50000) (K := 96) (n := 96) h W) ei b

/-- The last affine map: a product and a bias laid along the rows. -/
def affine (h : Arr Ideal S50000x96 .f32) (W : Arr Ideal S96x64 .f32) (b : Arr Ideal S64 .f32) : Arr Ideal S50000x64 .f32 :=
  fun i => matProd (m := 50000) (K := 96) (n := 64) h W i + b (ix1 (i 1))

/-- The network. -/
def gcn (x : Arr Ideal S50000x512 .f32) (ei : Arr Ideal S2x800000 .i32) (W0 : Arr Ideal S512x96 .f32) (b0 : Arr Ideal S96 .f32)
    (W1 : Arr Ideal S96x96 .f32) (b1 : Arr Ideal S96 .f32) (W2 : Arr Ideal S96x96 .f32) (b2 : Arr Ideal S96 .f32)
    (fcW : Arr Ideal S96x64 .f32) (fcb : Arr Ideal S64 .f32) : Arr Ideal S50000x64 .f32 :=
  affine (actNext (actNext (act1 x ei W0 b0) ei W1 b1) ei W2 b2) fcW fcb

end Cert.KernelIdeal.Network

end
-- ==== Proof.KernelValue.lean ====
/-
  The kernel program's result buffer, read through its eleven segments, is the network of its arguments.

  Boundary by boundary: the first stretch leaves the sources, the targets and the two normalisers, which nothing later
  writes; each product region leaves the product of what it found in its two input arrays; each layer's two stretches
  turn that product into the layer's activations; the arguments are never written.  Composing the eleven steps, the
  result buffer holds `gcn` of the ten argument arrays as launched.
-/
import proofs.«132753_j15307263443205_2_alg».proof.Proof.Gen.KernelIdeal.Frame
import proofs.«132753_j15307263443205_2_alg».proof.Proof.Stretches
import proofs.«132753_j15307263443205_2_alg».proof.Proof.RegionProduct
import proofs.«132753_j15307263443205_2_alg».proof.Proof.Network

set_option maxRecDepth 16384

noncomputable section

namespace Cert.KernelIdeal.KernelValue

open Cert.KernelIdeal Cert.KernelIdeal.Gen Cert.KernelIdeal.Layer Cert.KernelIdeal.Stretches Cert.KernelIdeal.Network
open Cert.KernelIdeal.RegionProduct Cert.MatProd
open Idealize.ShloMosaic Idealize.ShloMosaic.TcCoe Idealize.SL.Sem

variable (m : (ℓ : Loc nD τ sig) → Buf (Elt Ideal) ℓ) (ρ : Dev nD → PrngReg) (c : Dev nD)

/-! ## What nothing writes: a buffer read back to an earlier boundary -/

/-- Boundary 1 back to the launch. -/
theorem back1 (r : Ref sig .tc) (h1 : r ∉ written0 := by decide) : W1 m ρ c (Proc.devRef .tc r) = W0 m ρ c (Proc.devRef .tc r) :=
  keep0 _ r h1
/-- Boundary 2 back to boundary 1: the first product writes only its output. -/
theorem back2 (r : Ref sig .tc) (h2 : ∀ w, Pipeline.arrRef spec0 w ≠ r := by decide) : W2 m ρ c (Proc.devRef .tc r) = W1 m ρ c (Proc.devRef .tc r) :=
  W2_of_ne m ρ c r h2
/-- Boundary 4 back to boundary 2. -/
theorem back4 (r : Ref sig .tc) (h3 : r ∉ written1 := by decide) (h4 : r ∉ written1_1 := by decide) :
    W4 m ρ c (Proc.devRef .tc r) = W2 m ρ c (Proc.devRef .tc r) :=
  (keep1_1 _ r h4).trans (keep1 _ r h3)
/-- Boundary 5 back to boundary 4. -/
theorem back5 (r : Ref sig .tc) (h5 : ∀ w, Pipeline.arrRef spec1 w ≠ r := by decide) : W5 m ρ c (Proc.devRef .tc r) = W4 m ρ c (Proc.devRef .tc r) :=
  W5_of_ne m ρ c r h5
/-- Boundary 7 back to boundary 5. -/
theorem back7 (r : Ref sig .tc) (h6 : r ∉ written2 := by decide) (h7 : r ∉ written2_1 := by decide) :
    W7 m ρ c (Proc.devRef .tc r) = W5 m ρ c (Proc.devRef .tc r) :=
  (keep2_1 _ r h7).trans (keep2 _ r h6)
/-- Boundary 8 back to boundary 7. -/
theorem back8 (r : Ref sig .tc) (h8 : ∀ w, Pipeline.arrRef spec2 w ≠ r := by decide) : W8 m ρ c (Proc.devRef .tc r) = W7 m ρ c (Proc.devRef .tc r) :=
  W8_of_ne m ρ c r h8
/-- Boundary 10 back to boundary 8. -/
theorem back10 (r : Ref sig .tc) (h9 : r ∉ written3 := by decide) (h10 : r ∉ written3_1 := by decide) :
    W10 m ρ c (Proc.devRef .tc r) = W8 m ρ c (Proc.devRef .tc r) :=
  (keep3_1 _ r h10).trans (keep3 _ r h9)

/-! ## The arguments where they are read -/

theorem arg_at1 (r : Ref sig .tc) (h1 : r ∉ written0 := by decide) : W1 m ρ c (Proc.devRef .tc r) = W0 m ρ c (Proc.devRef .tc r) := back1 m ρ c r h1
theorem arg_at2 (r : Ref sig .tc) (h1 : r ∉ written0 := by decide) (h2 : ∀ w, Pipeline.arrRef spec0 w ≠ r := by decide) :
    W2 m ρ c (Proc.devRef .tc r) = W0 m ρ c (Proc.devRef .tc r) := (back2 m ρ c r h2).trans (back1 m ρ c r h1)
theorem arg_at4 (r : Ref sig .tc) (h1 : r ∉ written0 := by decide) (h2 : ∀ w, Pipeline.arrRef spec0 w ≠ r := by decide)
    (h3 : r ∉ written1 := by decide) (h4 : r ∉ written1_1 := by decide) :
    W4 m ρ c (Proc.devRef .tc r) = W0 m ρ c (Proc.devRef .tc r) := (back4 m ρ c r h3 h4).trans (arg_at2 m ρ c r h1 h2)
theorem arg_at5 (r : Ref sig .tc) (h1 : r ∉ written0 := by decide) (h2 : ∀ w, Pipeline.arrRef spec0 w ≠ r := by decide)
    (h3 : r ∉ written1 := by decide) (h4 : r ∉ written1_1 := by decide) (h5 : ∀ w, Pipeline.arrRef spec1 w ≠ r := by decide) :
    W5 m ρ c (Proc.devRef .tc r) = W0 m ρ c (Proc.devRef .tc r) := (back5 m ρ c r h5).trans (arg_at4 m ρ c r h1 h2 h3 h4)
theorem arg_at7 (r : Ref sig .tc) (h1 : r ∉ written0 := by decide) (h2 : ∀ w, Pipeline.arrRef spec0 w ≠ r := by decide)
    (h3 : r ∉ written1 := by decide) (h4 : r ∉ written1_1 := by decide) (h5 : ∀ w, Pipeline.arrRef spec1 w ≠ r := by decide)
    (h6 : r ∉ written2 := by decide) (h7 : r ∉ written2_1 := by decide) :
    W7 m ρ c (Proc.devRef .tc r) = W0 m ρ c (Proc.devRef .tc r) := (back7 m ρ c r h6 h7).trans (arg_at5 m ρ c r h1 h2 h3 h4 h5)
theorem arg_at8 (r : Ref sig .tc) (h1 : r ∉ written0 := by decide) (h2 : ∀ w, Pipeline.arrRef spec0 w ≠ r := by decide)
    (h3 : r ∉ written1 := by decide) (h4 : r ∉ written1_1 := by decide) (h5 : ∀ w, Pipeline.arrRef spec1 w ≠ r := by decide)
    (h6 : r ∉ written2 := by decide) (h7 : r ∉ written2_1 := by decide) (h8 : ∀ w, Pipeline.arrRef spec2 w ≠ r := by decide) :
    W8 m ρ c (Proc.devRef .tc r) = W0 m ρ c (Proc.devRef .tc r) := (back8 m ρ c r h8).trans (arg_at7 m ρ c r h1 h2 h3 h4 h5 h6 h7)
theorem arg_at10 (r : Ref sig .tc) (h1 : r ∉ written0 := by decide) (h2 : ∀ w, Pipeline.arrRef spec0 w ≠ r := by decide)
    (h3 : r ∉ written1 := by decide) (h4 : r ∉ written1_1 := by decide) (h5 : ∀ w, Pipeline.arrRef spec1 w ≠ r := by decide)
    (h6 : r ∉ written2 := by decide) (h7 : r ∉ written2_1 := by decide) (h8 : ∀ w, Pipeline.arrRef spec2 w ≠ r := by decide)
    (h9 : r ∉ written3 := by decide) (h10 : r ∉ written3_1 := by decide) :
    W10 m ρ c (Proc.devRef .tc r) = W0 m ρ c (Proc.devRef .tc r) := (back10 m ρ c r h9 h10).trans (arg_at8 m ρ c r h1 h2 h3 h4 h5 h6 h7 h8)

/-! ## The graph's quantities where they are read: boundaries 2, 5 and 8 -/

theorem src_at2 : W2 m ρ c (Proc.devRef .tc main_v1) = src (m ((c.tc : Thread nD τ).loc main_arg1)) := (back2 m ρ c main_v1).trans (graph_src (W0 m ρ c))
theorem dst_at2 : W2 m ρ c (Proc.devRef .tc main_v3) = dst (m ((c.tc : Thread nD τ).loc main_arg1)) := (back2 m ρ c main_v3).trans (graph_dst (W0 m ρ c))
theorem edgeNorm_at2 : W2 m ρ c (Proc.devRef .tc main_v25) = edgeNorm (src (m ((c.tc : Thread nD τ).loc main_arg1))) (dst (m ((c.tc : Thread nD τ).loc main_arg1))) :=
  (back2 m ρ c main_v25).trans (graph_edgeNorm (W0 m ρ c))
theorem selfNorm_at2 : W2 m ρ c (Proc.devRef .tc main_v26) = selfNorm (dst (m ((c.tc : Thread nD τ).loc main_arg1))) := (back2 m ρ c main_v26).trans (graph_selfNorm (W0 m ρ c))

theorem src_at5 : W5 m ρ c (Proc.devRef .tc main_v1) = src (m ((c.tc : Thread nD τ).loc main_arg1)) := ((back5 m ρ c main_v1).trans (back4 m ρ c main_v1)).trans (src_at2 m ρ c)
theorem dst_at5 : W5 m ρ c (Proc.devRef .tc main_v3) = dst (m ((c.tc : Thread nD τ).loc main_arg1)) := ((back5 m ρ c main_v3).trans (back4 m ρ c main_v3)).trans (dst_at2 m ρ c)
theorem edgeNorm_at5 : W5 m ρ c (Proc.devRef .tc main_v25) = edgeNorm (src (m ((c.tc : Thread nD τ).loc main_arg1))) (dst (m ((c.tc : Thread nD τ).loc main_arg1))) :=
  ((back5 m ρ c main_v25).trans (back4 m ρ c main_v25)).trans (edgeNorm_at2 m ρ c)
theorem selfNorm_at5 : W5 m ρ c (Proc.devRef .tc main_v26) = selfNorm (dst (m ((c.tc : Thread nD τ).loc main_arg1))) :=
  ((back5 m ρ c main_v26).trans (back4 m ρ c main_v26)).trans (selfNorm_at2 m ρ c)

theorem src_at8 : W8 m ρ c (Proc.devRef .tc main_v1) = src (m ((c.tc : Thread nD τ).loc main_arg1)) := ((back8 m ρ c main_v1).trans (back7 m ρ c main_v1)).trans (src_at5 m ρ c)
theorem dst_at8 : W8 m ρ c (Proc.devRef .tc main_v3) = dst (m ((c.tc : Thread nD τ).loc main_arg1)) := ((back8 m ρ c main_v3).trans (back7 m ρ c main_v3)).trans (dst_at5 m ρ c)
theorem edgeNorm_at8 : W8 m ρ c (Proc.devRef .tc main_v25) = edgeNorm (src (m ((c.tc : Thread nD τ).loc main_arg1))) (dst (m ((c.tc : Thread nD τ).loc main_arg1))) :=
  ((back8 m ρ c main_v25).trans (back7 m ρ c main_v25)).trans (edgeNorm_at5 m ρ c)
theorem selfNorm_at8 : W8 m ρ c (Proc.devRef .tc main_v26) = selfNorm (dst (m ((c.tc : Thread nD τ).loc main_arg1))) :=
  ((back8 m ρ c main_v26).trans (back7 m ρ c main_v26)).trans (selfNorm_at5 m ρ c)

/-! ## The activations, boundary by boundary -/

/-- After the first product: x·W0. -/
theorem prod_at2 : W2 m ρ c (Proc.devRef .tc main_v27) = matProd (m := 50000) (K := 512) (n := 96) (m ((c.tc : Thread nD τ).loc main_arg0)) (m ((c.tc : Thread nD τ).loc main_arg2)) :=
  ((W2_arr m ρ c 2).trans (arr0 (V1 m ρ) c)).trans
    (congrArg₂ (matProd (m := 50000) (K := 512) (n := 96)) (arg_at1 m ρ c main_arg0) (arg_at1 m ρ c main_arg2))

/-- After the first layer's tail. -/
theorem act_at4 : W4 m ρ c (Proc.devRef .tc main_v50) = act1 (m ((c.tc : Thread nD τ).loc main_arg0)) (m ((c.tc : Thread nD τ).loc main_arg1)) (m ((c.tc : Thread nD τ).loc main_arg2)) (m ((c.tc : Thread nD τ).loc main_arg3)) := by
  have e := (relu1_1 (W3 m ρ c)).trans (congrArg relu (conv1 (W2 m ρ c)))
  rw [prod_at2 m ρ c, src_at2 m ρ c, dst_at2 m ρ c, edgeNorm_at2 m ρ c, selfNorm_at2 m ρ c, arg_at2 m ρ c main_arg3, rowsNarrow_eq] at e
  exact e

/-- After the second product. -/
theorem prod_at5 : W5 m ρ c (Proc.devRef .tc main_v51)
    = matProd (m := 50000) (K := 96) (n := 96) (act1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  ((W5_arr m ρ c 2).trans (arr1 (V4 m ρ) c)).trans
    (congrArg₂ (matProd (m := 50000) (K := 96) (n := 96)) (act_at4 m ρ c) (arg_at4 m ρ c main_arg4))

/-- After the second layer's tail. -/
theorem act_at7 : W7 m ρ c (Proc.devRef .tc main_v74) = actNext (act1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  have e := (relu2_1 (W6 m ρ c)).trans (congrArg relu (conv2 (W5 m ρ c)))
  rw [prod_at5 m ρ c, src_at5 m ρ c, dst_at5 m ρ c, edgeNorm_at5 m ρ c, selfNorm_at5 m ρ c, arg_at5 m ρ c main_arg5, rowsNarrow_eq] at e
  exact e

/-- After the third product. -/
theorem prod_at8 : W8 m ρ c (Proc.devRef .tc main_v75)
    = matProd (m := 50000) (K := 96) (n := 96) (actNext (act1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg6)) :=
  ((W8_arr m ρ c 2).trans (arr2 (V7 m ρ) c)).trans
    (congrArg₂ (matProd (m := 50000) (K := 96) (n := 96)) (act_at7 m ρ c) (arg_at7 m ρ c main_arg6))

/-- After the third layer's tail. -/
theorem act_at10 : W10 m ρ c (Proc.devRef .tc main_v98)
    = actNext (actNext (act1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) := by
  have e := (relu3_1 (W9 m ρ c)).trans (congrArg relu (conv3 (W8 m ρ c)))
  rw [prod_at8 m ρ c, src_at8 m ρ c, dst_at8 m ρ c, edgeNorm_at8 m ρ c, selfNorm_at8 m ρ c, arg_at8 m ρ c main_arg7, rowsNarrow_eq] at e
  exact e

/-- THE RESULT: after the last product with its bias, the result buffer holds the network of the arguments. -/
theorem result : W11 m ρ c (Proc.devRef .tc main_v99)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e := (W11_arr m ρ c 3).trans (arr3 (V10 m ρ) c)
  rw [show V10 m ρ c main_v98 = _ from act_at10 m ρ c, show V10 m ρ c main_arg8 = _ from arg_at10 m ρ c main_arg8,
    show V10 m ρ c main_arg9 = _ from arg_at10 m ρ c main_arg9] at e
  exact e

end Cert.KernelIdeal.KernelValue

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.RefValue.lean ====
/-
  The reference program's result is the network of its arguments.

  The reference runs the same host operations as the layers' definitions, in the same order, with the normalisers
  recomputed for each layer (the same terms each time) and each product spelt as the host's `dot_general`.  A
  `dot_general` of the plain form is the matrix product, and the last bias, sent to [1, 64] and then to [50000, 64], reads
  its entry q at (p, q); with those two facts the result term IS `gcn` of the argument arrays, piece by piece.
-/
import proofs.«132753_j15307263443205_2_alg».proof.Proof.Gen.ReferenceIdeal.Run
import proofs.«132753_j15307263443205_2_alg».proof.Proof.Gen.KernelIdeal
import proofs.«132753_j15307263443205_2_alg».proof.Proof.Network
import proofs.«132753_j15307263443205_2_alg».proof.Proof.LibVecBcast

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.ValueIdx
open Cert.MatProd

/-- The first layer's `dot_general` is the product. -/
theorem dot0_eq (l : FVec Ideal S50000x512 .f32) (r : FVec Ideal S512x96 .f32) :
    Host.dotGeneral dot_S50000x512_S512x96_S50000x96_1_0_0_1_n_n none l r = matProd (m := 50000) (K := 512) (n := 96) l r :=
  dotGeneral_eq dot_S50000x512_S512x96_S50000x96_1_0_0_1_n_n_wf none .single l r

/-- The middle layers' `dot_general` is the product. -/
theorem dot1_eq (l : FVec Ideal S50000x96 .f32) (r : FVec Ideal S96x96 .f32) :
    Host.dotGeneral dot_S50000x96_S96x96_S50000x96_1_0_0_1_n_n none l r = matProd (m := 50000) (K := 96) (n := 96) l r :=
  dotGeneral_eq dot_S50000x96_S96x96_S50000x96_1_0_0_1_n_n_wf none .single l r

/-- The last `dot_general` is the product. -/
theorem dot3_eq (l : FVec Ideal S50000x96 .f32) (r : FVec Ideal S96x64 .f32) :
    Host.dotGeneral dot_S50000x96_S96x64_S50000x64_1_0_0_1_n_n none l r = matProd (m := 50000) (K := 96) (n := 64) l r :=
  dotGeneral_eq dot_S50000x96_S96x64_S50000x64_1_0_0_1_n_n_wf none .single l r

/-- A product plus the bias laid along the rows is the last affine map, entry by entry. -/
theorem affine_eq (h : FVec Ideal S50000x96 .f32) (W : FVec Ideal S96x64 .f32) (b : FVec Ideal S64 .f32) :
    addf (matProd (m := 50000) (K := 96) (n := 64) h W : FVec Ideal S50000x64 .f32)
        (broadcastInDim S50000x64 ![0, 1] bcast_S1x64_S50000x64_0_1 (broadcastInDim S1x64 ![1] bcast_S64_S1x64_1 b))
      = Cert.KernelIdeal.Network.affine h W b := by
  funext i
  obtain ⟨p, q, rfl⟩ : ∃ (p : Fin 50000) (q : Fin 64), i = ix2 p q := ⟨i 0, i 1, eq_ix2 i⟩
  show matProd (m := 50000) (K := 96) (n := 64) h W (ix2 p q)
      + broadcastInDim S50000x64 ![0, 1] bcast_S1x64_S50000x64_0_1 (broadcastInDim S1x64 ![1] bcast_S64_S1x64_1 b) (ix2 p q)
    = matProd (m := 50000) (K := 96) (n := 64) h W (ix2 p q) + b (ix1 q)
  rw [Cert.VecBcast.rowVec_bcast_apply]

set_option maxHeartbeats 4000000 in
/-- THE REFERENCE'S RESULT is the network of the arguments. -/
theorem result (m : (ℓ : Loc nD τ sig) → Buf (Elt Ideal) ℓ) (c : Dev nD) :
    Value.res_main_v142 (F := Ideal) m c
      = Cert.KernelIdeal.Network.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v142
  simp only [dot0_eq, dot1_eq, dot3_eq]
  exact affine_eq _ _ _

end Cert.ReferenceIdeal.RefValue

end
-- ==== Proof.lean ====
/-
  A three-layer graph-convolution network with a final linear map, computed two ways, gives one result on the extended
  reals.

  Both programs compute, from node features x [50000, 512], an edge list [2, 800000] and the weights,

      out = relu(conv(relu(conv(relu(conv(x·W0))·W1))·W2))·fcW + fcb,
      conv(h)[v] = Σ_{e : t(e) = v} h[s(e)] · dinv[s(e)] · dinv[t(e)] + h[v] · dinv[v]² + b,   dinv = (1 + in-degree)^(-1/2).

  One program forms each product h·W in a kernel, ten row blocks of 5000 rows with the weight matrix whole at every
  block, from operands narrowed to 16 bits and accumulated from zero, adds the last bias inside its fourth kernel,
  stages h in 16 bits before gathering rows, and computes the normalisers once; the other forms each product by one
  `dot_general`, gathers from h directly, and recomputes the normalisers for every layer.  On the extended reals a
  change of float format is the identity, a block's rows of a product are the product's rows, and the recomputed
  normalisers are the same terms; every other operation is the same operation on the same operands in the same order.
  So both result arrays are `gcn` of the arguments (Network.lean): no sum is re-associated, nothing is distributed or
  cancelled, and the finiteness of the inputs is never used.

  The modules: LibMatProd (the product as one array; `dot_general` and a zero-accumulated `tpu.matmul` are it),
  RegionProduct (each kernel region's output array is the product of its two input arrays as the region finds them),
  Layer and Network (the layer's tail and the network as host operations), Stretches (what each stretch of host
  operations computes from any contents), KernelRun (the kernel program's run with its result named), KernelValue
  (its result buffer is `gcn`), RefValue (the other program's result term is `gcn`).
-/
import proofs.«132753_j15307263443205_2_alg».proof.Defs
import proofs.«132753_j15307263443205_2_alg».proof.Proof.Gen.Kernel
import proofs.«132753_j15307263443205_2_alg».proof.Proof.Gen.Kernel.Skeleton
import proofs.«132753_j15307263443205_2_alg».proof.Proof.Gen.Kernel.Launch
import proofs.«132753_j15307263443205_2_alg».proof.Proof.Gen.Kernel.Points
import proofs.«132753_j15307263443205_2_alg».proof.Proof.Gen.Kernel.Frame
import proofs.«132753_j15307263443205_2_alg».proof.Proof.Gen.KernelIdeal
import proofs.«132753_j15307263443205_2_alg».proof.Proof.Gen.KernelIdeal.Skeleton
import proofs.«132753_j15307263443205_2_alg».proof.Proof.Gen.KernelIdeal.Launch
import proofs.«132753_j15307263443205_2_alg».proof.Proof.Gen.KernelIdeal.Points
import proofs.«132753_j15307263443205_2_alg».proof.Proof.Gen.KernelIdeal.Frame
import proofs.«132753_j15307263443205_2_alg».proof.Proof.Gen.ReferenceIdeal
import proofs.«132753_j15307263443205_2_alg».proof.Proof.Gen.ReferenceIdeal.Run
import proofs.«132753_j15307263443205_2_alg».proof.Proof.Gen.Pre_finite_inputs
import proofs.«132753_j15307263443205_2_alg».proof.Proof.KernelRun
import proofs.«132753_j15307263443205_2_alg».proof.Proof.KernelValue
import proofs.«132753_j15307263443205_2_alg».proof.Proof.RefValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `gcn` of the arguments in their result buffers. -/
theorem algebraic : Cert.algebraic_KernelIdeal_ReferenceIdeal := by
  intro m ρ m' ρ' _ hagree
  refine ⟨fun c => Cert.KernelIdeal.Network.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.result m' c, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
